-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x2048x16 : S_.BroadcastsInDim S1024x2048x16 (![] : Fin 0 → Fin S1024x2048x16.rank)
  reducesTo_S1024x2048x16_S_d0_1_2 : S1024x2048x16.ReducesTo [0, 1, 2] S_
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S65536x1024 .f32) (main_arg1 : IVec S65536 32) (main_arg2 : FVec F S1024x2048x16 .f32) (main_arg3 : FVec F S2048x16 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x2048x16 .f32 := Host.absf main_arg2
  let main_cst_0 : FVec F S_ .f32 := constant S_ .f32 0x7F800000#32
  let main_v5 : FVec F S1024x2048x16 .f32 := broadcastInDim S1024x2048x16 ![] bcast_S_S1024x2048x16 main_cst_0
  let main_v6 : IVec S1024x2048x16 1 := cmpf .olt main_v4 main_v5
  let main_c_1 : IVec S_ 1 := constantI S_ 1 1#1
  let main_v7 : IVec S_ 1 := (fun x v => Host.reduce IntOp.andi x v reducesTo_S1024x2048x16_S_d0_1_2 h_S_) main_v6 main_c_1
  let main_v8 : IVec S_ 1 := andi main_v3 main_v7
  let main_v9 : FVec F S2048x16 .f32 := Host.absf main_arg3
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  main_v13
-- ==== Kernel.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S16x4096x1024 : Shape := ⟨3, ![16, 4096, 1024]⟩
abbrev S16x1024x2048 : Shape := ⟨3, ![16, 1024, 2048]⟩
abbrev S16x2048 : Shape := ⟨2, ![16, 2048]⟩
abbrev S16x1x2048 : Shape := ⟨3, ![16, 1, 2048]⟩
abbrev S16x4096x2048 : Shape := ⟨3, ![16, 4096, 2048]⟩
abbrev S1x1024x1024 : Shape := ⟨3, ![1, 1024, 1024]⟩
abbrev S1x1024x2048 : Shape := ⟨3, ![1, 1024, 2048]⟩
abbrev S1x1x2048 : Shape := ⟨3, ![1, 1, 2048]⟩
abbrev S1024x1024 : Shape := ⟨2, ![1024, 1024]⟩
abbrev S1024x2048 : Shape := ⟨2, ![1024, 2048]⟩
abbrev S1x2048 : Shape := ⟨2, ![1, 2048]⟩
abbrev S65536x2048 : Shape := ⟨2, ![65536, 2048]⟩

abbrev nBuf : Space → Nat
  | .hbm => 11
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1024x2048x16, .f32⟩
  | .hbm, ⟨3, _⟩ => ⟨S2048x16, .f32⟩
  | .hbm, ⟨4, _⟩ => ⟨S16x4096x1024, .f32⟩
  | .hbm, ⟨5, _⟩ => ⟨S16x1024x2048, .f32⟩
  | .hbm, ⟨6, _⟩ => ⟨S16x1024x2048, .bf16⟩
  | .hbm, ⟨7, _⟩ => ⟨S16x2048, .f32⟩
  | .hbm, ⟨8, _⟩ => ⟨S16x1x2048, .f32⟩
  | .hbm, ⟨9, _⟩ => ⟨S16x4096x2048, .f32⟩
  | .hbm, ⟨10, _⟩ => ⟨S65536x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x2048, .f32⟩
  | .local _ .vmem, ⟨7, _⟩ => ⟨S1x1024x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S65536x1024_S16x4096x1024 : S65536x1024.ShapeCasts S16x4096x1024
  transposes_S1024x2048x16_S16x1024x2048_2_0_1 : S1024x2048x16.Transposes [2, 0, 1] S16x1024x2048
  bitsLt_bf16_f32 : FTy.bits .bf16 < FTy.bits .f32
  transposes_S2048x16_S16x2048_1_0 : S2048x16.Transposes [1, 0] S16x2048
  bcast_S16x2048_S16x1x2048_0_2 : S16x2048.BroadcastsInDim S16x1x2048 (![0, 2] : Fin 2 → Fin S16x1x2048.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S1024x2048 : S1x2048.Broadcasts S1024x2048
  shapeCasts_S1024x2048_S1x1024x2048 : S1024x2048.ShapeCasts S1x1024x2048
  shapeCasts_S16x4096x2048_S65536x2048 : S16x4096x2048.ShapeCasts S65536x2048
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x4096x1024.size a
  hwx0_0 : ∀ i : grid0.Coords, EltTy.bits .f32 = 32 ∨ (Rect.block (s := S16x4096x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x1024x2048.size a
  hwx0_1 : ∀ i : grid0.Coords, EltTy.bits .bf16 = 32 ∨ (Rect.block (s := S16x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x2048.size a
  hwx0_2 : ∀ i : grid0.Coords, EltTy.bits .f32 = 32 ∨ (Rect.block (s := S16x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x4096x2048.size a
  hwx0_3 : ∀ i : grid0.Coords, EltTy.bits .f32 = 32 ∨ (Rect.block (s := S16x4096x2048) S1x1024x2048.size (cc0_transform_3 i) (hinb0_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S1024x2048x16 : Shape := ⟨3, ![1024, 2048, 16]⟩
abbrev S2048x16 : Shape := ⟨2, ![2048, 16]⟩
abbrev S16x4096x1024 : Shape := ⟨3, ![16, 4096, 1024]⟩
abbrev S16x1024x2048 : Shape := ⟨3, ![16, 1024, 2048]⟩
abbrev S16x2048 : Shape := ⟨2, ![16, 2048]⟩
abbrev S16x1x2048 : Shape := ⟨3, ![16, 1, 2048]⟩
abbrev S16x4096x2048 : Shape := ⟨3, ![16, 4096, 2048]⟩
abbrev S_ : Shape := ⟨0, ![]⟩
abbrev S65536x2048 : Shape := ⟨2, ![65536, 2048]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1024x2048x16, .f32⟩
  | .hbm, ⟨3, _⟩ => ⟨S2048x16, .f32⟩
  | .hbm, ⟨4, _⟩ => ⟨S16x4096x1024, .f32⟩
  | .hbm, ⟨5, _⟩ => ⟨S16x1024x2048, .f32⟩
  | .hbm, ⟨6, _⟩ => ⟨S16x2048, .f32⟩
  | .hbm, ⟨7, _⟩ => ⟨S16x1x2048, .f32⟩
  | .hbm, ⟨8, _⟩ => ⟨S16x4096x2048, .f32⟩
  | .hbm, ⟨9, _⟩ => ⟨S16x4096x2048, .f32⟩
  | .hbm, ⟨10, _⟩ => ⟨S16x4096x2048, .f32⟩
  | .hbm, ⟨11, _⟩ => ⟨S16x4096x2048, .f32⟩
  | .hbm, ⟨12, _⟩ => ⟨S16x4096x2048, .f32⟩
  | .hbm, ⟨13, _⟩ => ⟨S_, .f32⟩
  | .hbm, ⟨14, _⟩ => ⟨S16x4096x2048, .f32⟩
  | .hbm, ⟨15, _⟩ => ⟨S16x4096x2048, .f32⟩
  | .hbm, ⟨16, _⟩ => ⟨S_, .f32⟩
  | .hbm, ⟨17, _⟩ => ⟨S16x4096x2048, .f32⟩
  | .hbm, ⟨18, _⟩ => ⟨S16x4096x2048, .f32⟩
  | .hbm, ⟨19, _⟩ => ⟨S16x4096x2048, .f32⟩
  | .hbm, ⟨20, _⟩ => ⟨S65536x2048, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  shapeCasts_S65536x1024_S16x4096x1024 : S65536x1024.ShapeCasts S16x4096x1024
  transposes_S1024x2048x16_S16x1024x2048_2_0_1 : S1024x2048x16.Transposes [2, 0, 1] S16x1024x2048
  transposes_S2048x16_S16x2048_1_0 : S2048x16.Transposes [1, 0] S16x2048
  bcast_S16x2048_S16x1x2048_0_2 : S16x2048.BroadcastsInDim S16x1x2048 (![0, 2] : Fin 2 → Fin S16x1x2048.rank)
  bcast_S16x1x2048_S16x4096x2048_0_1_2 : S16x1x2048.BroadcastsInDim S16x4096x2048 (![0, 1, 2] : Fin 3 → Fin S16x4096x2048.rank)
  bcast_S_S16x4096x2048 : S_.BroadcastsInDim S16x4096x2048 (![] : Fin 0 → Fin S16x4096x2048.rank)
  shapeCasts_S16x4096x2048_S65536x2048 : S16x4096x2048.ShapeCasts S65536x2048
  dot_S16x4096x1024_S16x1024x2048_S16x4096x2048_2_1_1_2_0_0_wf : DotDims.WF S16x4096x1024 S16x1024x2048 S16x4096x2048 [2] [1] [1] [2] [0] [0]

variable [Facts₀]

def dot_S16x4096x1024_S16x1024x2048_S16x4096x2048_2_1_1_2_0_0 : DotDims S16x4096x1024 S16x1024x2048 S16x4096x2048 where
  lhsContracting := [2]
  rhsContracting := [1]
  lhsNonContracting := [1]
  rhsNonContracting := [2]
  lhsBatch := [0]
  rhsBatch := [0]
  wf := dot_S16x4096x1024_S16x1024x2048_S16x4096x2048_2_1_1_2_0_0_wf

class Facts : Prop extends Facts₀ where

variable [Facts]
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.ExpertLayer.lean ====
/-
  One layer of a mixture of experts over tokens already sorted into sixteen equal groups, on the extended reals.

  Token n of group e is a row X(e, n, ·) of 1024 features; expert e has a weight matrix W(e, ·, ·) from 1024 features to
  2048 outputs and a bias row B(e, 0, ·).  The layer's output at (e, n, o) is

      silu ( Σ_k X(e, n, k) · W(e, k, o)  +  B(e, 0, o) ),        silu y = y · 1 / (1 + e^(−y)).

  The sum is a finite sum in the commutative additive monoid of the extended reals, so it does not depend on how a
  program orders or tiles it, and nothing here needs the entries to be finite.
-/
import Idealize.ShloMosaic.PureOps.Ideal
import Idealize.ShloMosaic.Lib.ValueIdx

noncomputable section

namespace Cert.ExpertLayer

open Idealize.ShloMosaic Idealize.ShloMosaic.ValueIdx

/-- The sigmoid-weighted linear unit: y times the logistic function of y. -/
def silu (y : EReal) : EReal := y * Ideal.logistic y

/-- What an expert feeds its activation for one token and one output: the token's row against the expert's column of
    weights, plus the expert's bias for that output. -/
def preact (X : (⟨3, ![16, 4096, 1024]⟩ : Shape).Idx → EReal) (W : (⟨3, ![16, 1024, 2048]⟩ : Shape).Idx → EReal)
    (B : (⟨3, ![16, 1, 2048]⟩ : Shape).Idx → EReal) (e : Fin 16) (n : Fin 4096) (o : Fin 2048) : EReal :=
  (∑ k : Fin 1024, X (ix3 e n k) * W (ix3 e k o)) + B (ix3 e (0 : Fin 1) o)

/-- The layer: every group's tokens through that group's expert, then the activation. -/
def expertLayer (X : (⟨3, ![16, 4096, 1024]⟩ : Shape).Idx → EReal) (W : (⟨3, ![16, 1024, 2048]⟩ : Shape).Idx → EReal)
    (B : (⟨3, ![16, 1, 2048]⟩ : Shape).Idx → EReal) : (⟨3, ![16, 4096, 2048]⟩ : Shape).Idx → EReal :=
  fun i => silu (preact X W B (i 0) (i 1) (i 2))

end Cert.ExpertLayer

end
-- ==== Proof.BlockPayload.lean ====
/-
  What the kernel body leaves at one entry of its output block.

  At a grid point the body holds a [1, 1024, 1024] block of tokens, a [1, 1024, 2048] block of one expert's weights and
  that expert's [1, 1, 2048] bias row.  It drops the leading unit axes, multiplies the token rows into the weight
  columns starting from a zero accumulator, adds the bias row to every token row, applies y · logistic y, and puts the
  unit axis back.  Narrowing the tokens to a shorter float format changes nothing on the extended reals.  So entry
  (0, p, q) of the result is silu of (Σ_k tokens(0, p, k) · weights(0, k, q)) + bias(0, 0, q).
-/
import proofs.«125803_j58317065945538_2_alg».proof.Proof.Gen.KernelIdeal.Skeleton
import proofs.«125803_j58317065945538_2_alg».proof.Proof.LibRowColumn
import proofs.«125803_j58317065945538_2_alg».proof.Proof.ExpertLayer
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.ExpertLayer

variable {α : Type}

/-! ## The layout operations of the body, read at coordinates -/

/-- Dropping the leading unit axis of a [1, 1024, K] block: entry (p, k) is the block's (0, p, k). -/
theorem drop_unit3 {K : Nat} (v : (⟨3, ![1, 1024, K]⟩ : Shape).Idx → α)
    (h : (⟨3, ![1, 1024, K]⟩ : Shape).ShapeCasts ⟨2, ![1024, K]⟩) (p : Fin 1024) (k : Fin K) :
    shapeCast ⟨2, ![1024, K]⟩ v h (ix2 p k) = v (ix3 (0 : Fin 1) p k) :=
  (shapeCast_dropUnit_apply (n := 2) ![1024, K] v h (ix2 p k)).trans
    (congrArg v (funext fun a => by match a with | ⟨0, _⟩ => rfl | ⟨1, _⟩ => rfl | ⟨2, _⟩ => rfl))

/-- Dropping the leading unit axis of the [1, 1, 2048] bias block: entry (0, q) is the block's (0, 0, q). -/
theorem drop_unit_bias (v : (⟨3, ![1, 1, 2048]⟩ : Shape).Idx → α)
    (h : (⟨3, ![1, 1, 2048]⟩ : Shape).ShapeCasts ⟨2, ![1, 2048]⟩) (q : Fin 2048) :
    shapeCast ⟨2, ![1, 2048]⟩ v h (ix2 (0 : Fin 1) q) = v (ix3 (0 : Fin 1) (0 : Fin 1) q) :=
  (shapeCast_dropUnit_apply (n := 2) ![1, 2048] v h (ix2 (0 : Fin 1) q)).trans
    (congrArg v (funext fun a => by match a with | ⟨0, _⟩ => rfl | ⟨1, _⟩ => rfl | ⟨2, _⟩ => rfl))

/-- Spreading the [1, 2048] bias row over 1024 token rows: entry (p, q) is the row's (0, q). -/
theorem spread_rows (v : (⟨2, ![1, 2048]⟩ : Shape).Idx → α)
    (h : (⟨2, ![1, 2048]⟩ : Shape).Broadcasts ⟨2, ![1024, 2048]⟩) (p : Fin 1024) (q : Fin 2048) :
    broadcastTo ⟨2, ![1024, 2048]⟩ v h (ix2 p q) = v (ix2 (0 : Fin 1) q) :=
  broadcastTo_apply v h (ix2 p q) (ix2 (0 : Fin 1) q) (fun a => match a with
    | ⟨0, _⟩ => by show (0 : Nat) = if (1 : Nat) = 1 then 0 else q.val; rw [if_pos rfl]
    | ⟨1, _⟩ => by show q.val = if (2048 : Nat) = 1 then 0 else q.val; rw [if_neg (by decide)])

/-- Putting a leading unit axis on a [1024, 2048] result: entry (0, p, q) is the result's (p, q). -/
theorem add_unit (v : (⟨2, ![1024, 2048]⟩ : Shape).Idx → α)
    (h : (⟨2, ![1024, 2048]⟩ : Shape).ShapeCasts ⟨3, ![1, 1024, 2048]⟩) (p : Fin 1024) (q : Fin 2048) :
    shapeCast ⟨3, ![1, 1024, 2048]⟩ v h (ix3 (0 : Fin 1) p q) = v (ix2 p q) :=
  (shapeCast_addUnit_apply (n := 2) ![1024, 2048] v h (ix3 (0 : Fin 1) p q)).trans
    (congrArg v (funext fun a => by match a with | ⟨0, _⟩ => rfl | ⟨1, _⟩ => rfl))

/-! ## The body's matrix product: token rows against weight columns -/

theorem lhs_row (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl
theorem lhs_contr (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_contr (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_col (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The body's matrix product into the zero accumulator, at entry (p, q): row p of the left block against column q of the
    right block. -/
theorem product_entry (x : FVec Ideal S1024x1024 .bf16) (w : FVec Ideal S1024x2048 .bf16) (p : Fin 1024) (q : Fin 2048) :
    matmul dot_S1024x1024_S1024x2048_S1024x2048_1_0_0_1_n_n none x w (constant (F := Ideal) S1024x2048 .f32 0x00000000#32) (ix2 p q)
      = ∑ k : Fin 1024, x (ix2 p k) * w (ix2 k q) :=
  Cert.Lib.RowColumn.matmul_zero_entry dot_S1024x1024_S1024x2048_S1024x2048_1_0_0_1_n_n rfl rfl lhs_row lhs_contr rhs_contr rhs_col
    none x w (ix2 p q)

/-! ## The body's result at an entry -/

/-- Entry (0, p, q) of what the body stores: the activation of token p's row against weight column q plus the bias at q. -/
theorem result_entry (x0 : Vec Ideal S1x1024x1024 .f32) (x1 : Vec Ideal S1x1024x2048 .bf16) (x2 : Vec Ideal S1x1x2048 .f32)
    (p : Fin 1024) (q : Fin 2048) :
    k0_pay1 (F := Ideal) x0 x1 x2 (ix3 (0 : Fin 1) p q)
      = silu ((∑ k : Fin 1024, x0 (ix3 (0 : Fin 1) p k) * x1 (ix3 (0 : Fin 1) k q)) + x2 (ix3 (0 : Fin 1) (0 : Fin 1) q)) := by
  unfold k0_pay1
  rw [add_unit]
  show (_ : EReal) * Ideal.logistic _ = silu _
  unfold silu
  have hy : addf (matmul dot_S1024x1024_S1024x2048_S1024x2048_1_0_0_1_n_n none
        (truncf .bf16 (shapeCast S1024x1024 x0 shapeCasts_S1x1024x1024_S1024x1024 : FVec Ideal S1024x1024 .f32) bitsLt_bf16_f32 : FVec Ideal S1024x1024 .bf16)
        (shapeCast S1024x2048 x1 shapeCasts_S1x1024x2048_S1024x2048 : FVec Ideal S1024x2048 .bf16) (constant (F := Ideal) S1024x2048 .f32 0x00000000#32))
      (broadcastTo S1024x2048 (shapeCast S1x2048 x2 shapeCasts_S1x1x2048_S1x2048 : FVec Ideal S1x2048 .f32) broadcasts_S1x2048_S1024x2048) (ix2 p q)
      = (∑ k : Fin 1024, x0 (ix3 (0 : Fin 1) p k) * x1 (ix3 (0 : Fin 1) k q)) + x2 (ix3 (0 : Fin 1) (0 : Fin 1) q) := by
    rw [addf_apply, product_entry, spread_rows, drop_unit_bias]
    congr 1
    refine Finset.sum_congr rfl fun k _ => ?_
    rw [truncf_apply, drop_unit3, drop_unit3]
  exact congrArg (fun y => y * Ideal.logistic y) hy

end Cert.KernelIdeal.Block

end
-- ==== Proof.KernelArray.lean ====
/-
  The kernel's output array, and its result, as the expert layer.

  The grid has one point per (group e, tile nt) with 16 groups and 4 tiles of 1024 tokens.  At that point the body sees
  tokens e·4096 + nt·1024 … +1023 of the regrouped token array, ALL of expert e's weights and expert e's bias row, and
  writes the matching 1024 × 2048 tile of the output array.  So a tile's entry (0, p, q) sits at (e, nt·1024 + p, q)
  of the output, the token row it used sits at (e, nt·1024 + p, ·) of the tokens, and the weight column and bias at
  (e, ·, q) and (e, 0, q): the tile is the expert layer read through the tile's rectangle.  The 64 tiles cover the
  output array, so after the run the array is the expert layer of the three arrays the region was launched on; those
  are the argument arrays regrouped, transposed and (for the weights) narrowed, and the result is the output array
  with its two leading axes merged.
-/
import proofs.«125803_j58317065945538_2_alg».proof.Proof.Gen.KernelIdeal.Frame
import proofs.«125803_j58317065945538_2_alg».proof.Proof.BlockPayload
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.SL.Sem
open Idealize.ShloMosaic.ValueIdx Cert.ExpertLayer
open Idealize.ShloMosaic.Pipeline (Dat)

variable (m : (ℓ : Loc nD τ sig) → Buf (Elt Ideal) ℓ) (ρ : Dev nD → PrngReg)

/-! ## Where the four windows sit at a grid point -/

theorem origin : (![0, 0, 0] : Fin 3 → Nat) = fun _ => 0 := funext fun a => by fin_cases a <;> rfl

/-- At every grid point the token window and the output window are at the same (group, tile) block; the weight and bias
    windows are at the group's block; no window moves along its last axis; groups are below 16 and tiles below 4. -/
theorem window_positions : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (2 : Fin 3) = 0
    ∧ win0_3.index t (0 : Fin 3) ≤ 15
    ∧ win0_3.index t (1 : Fin 3) ≤ 3 :=
  (by decide +kernel : ∀ t : Fin grid0.N, _)

/-- Every (group, tile) pair is some grid point's output block. -/
theorem every_tile : ∀ (e : Fin 16) (nt : Fin 4), ∃ t : Fin cfg0.N, win0_3.index t = ![e.val, nt.val, 0] :=
  (by decide +kernel : ∀ (e : Fin 16) (nt : Fin 4), ∃ t : Fin grid0.N, win0_3.index t = ![e.val, nt.val, 0])

/-! ## One tile -/

/-- A tile entry against the layer: if the token rows, weight columns and bias the body holds are the layer's operands at
    the entry's place i in the output array, the body's result there is the layer at i. -/
theorem tile_entry (x0 : Vec Ideal S1x1024x1024 .f32) (x1 : Vec Ideal S1x1024x2048 .bf16) (x2 : Vec Ideal S1x1x2048 .f32)
    (X : S16x4096x1024.Idx → EReal) (W : S16x1024x2048.Idx → EReal) (B : S16x1x2048.Idx → EReal)
    (i : S16x4096x2048.Idx) (p : Fin 1024) (q : Fin 2048)
    (h0 : ∀ k : Fin 1024, x0 (ix3 (0 : Fin 1) p k) = X (ix3 (i 0) (i 1) k))
    (h1 : ∀ k : Fin 1024, x1 (ix3 (0 : Fin 1) k q) = W (ix3 (i 0) k (i 2)))
    (h2 : x2 (ix3 (0 : Fin 1) (0 : Fin 1) q) = B (ix3 (i 0) (0 : Fin 1) (i 2))) :
    k0_pay1 (F := Ideal) x0 x1 x2 (ix3 (0 : Fin 1) p q) = expertLayer X W B i := by
  rw [Cert.KernelIdeal.Block.result_entry]
  unfold expertLayer preact
  simp only [h0, h1, h2]

/-- WHAT A GRID POINT WRITES BACK is its tile of the expert layer of the arrays the region was launched on. -/
theorem tile_eq (c : Dev nD) (t : Fin cfg0.N) :
    (dats m 0 c).flushed 3 t
      = ((cfg0.win 3).blk t).view.read (Elt Ideal) (expertLayer (V m c main_v0) (V m c main_v2) (V m c main_v4)) := by
  show (cfg0.win 3).cut (grid0.coords t) ((dats m 0 c).after 3 t) = _
  rw [after0_3]
  unfold out0_3
  rw [View.canon_unit_zero origin]
  simp only [View.ld_unit_zero (S := S1x1024x1024) origin, View.ld_unit_zero (S := S1x1024x2048) origin,
    View.ld_unit_zero (S := S1x1x2048) origin]
  obtain ⟨e0, e1, e2, e3, e4, e5, e6, e7, e8, e9, e10, e11⟩ := window_positions t
  funext j
  have hj0 : (j 0).val < 1 := (j 0).isLt
  have hj : (j : S1x1024x2048.Idx) = ix3 (0 : Fin 1) (j 1) (j 2) := by
    funext a
    match a with
    | ⟨0, _⟩ => exact Fin.ext (by show (j 0).val = 0; omega)
    | ⟨1, _⟩ => rfl
    | ⟨2, _⟩ => rfl
  refine (congrArg (k0_pay1 (F := Ideal) (iblk m c 0 t) (iblk m c 1 t) (iblk m c 2 t)) hj).trans ?_
  refine tile_entry (iblk m c 0 t) (iblk m c 1 t) (iblk m c 2 t) (V m c main_v0) (V m c main_v2) (V m c main_v4)
    (((cfg0.win 3).blk t).view.emb j) (j 1) (j 2) ?_ ?_ ?_
  · intro k
    show V m c main_v0 (((cfg0.win 0).blk t).view.emb (ix3 (0 : Fin 1) (j 1) k)) = V m c main_v0 _
    refine congrArg (V m c main_v0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 1024 + 1 * k.val = k.val; omega
  · intro k
    show V m c main_v2 (((cfg0.win 1).blk t).view.emb (ix3 (0 : Fin 1) k (j 2))) = V m c main_v2 _
    refine congrArg (V m c main_v2) (funext fun a => Fin.ext ?_)
    match a with
    | ⟨0, _⟩ => show win0_1.index t (0 : Fin 3) * 1 + 1 * 0 = win0_3.index t (0 : Fin 3) * 1 + 1 * (j 0).val; omega
    | ⟨1, _⟩ => show win0_1.index t (1 : Fin 3) * 1024 + 1 * k.val = k.val; omega
    | ⟨2, _⟩ => show win0_1.index t (2 : Fin 3) * 2048 + 1 * (j 2).val = win0_3.index t (2 : Fin 3) * 2048 + 1 * (j 2).val; omega
  · show V m c main_v4 (((cfg0.win 2).blk t).view.emb (ix3 (0 : Fin 1) (0 : Fin 1) (j 2))) = V m c main_v4 _
    refine congrArg (V m c main_v4) (funext fun a => Fin.ext ?_)
    match a with
    | ⟨0, _⟩ => show win0_2.index t (0 : Fin 3) * 1 + 1 * 0 = win0_3.index t (0 : Fin 3) * 1 + 1 * (j 0).val; omega
    | ⟨1, _⟩ => show win0_2.index t (1 : Fin 3) * 1 + 1 * 0 = 0; omega
    | ⟨2, _⟩ => show win0_2.index t (2 : Fin 3) * 2048 + 1 * (j 2).val = win0_3.index t (2 : Fin 3) * 2048 + 1 * (j 2).val; omega

/-! ## The tiles cover the output array -/

/-- An index of the output array is in a point's tile iff each coordinate is in the tile's range on its axis. -/
theorem mem_tile (t : Fin cfg0.N) (i : S16x4096x2048.Idx) :
    i ∈ ((cfg0.win 3).blk t).view.set ↔ ∀ a : Fin 3, win0_3.index t a * S1x1024x2048.size a ≤ (i a).val
      ∧ (i a).val < win0_3.index t a * S1x1024x2048.size a + S1x1024x2048.size a := by
  show i ∈ ((View.whole main_v5).slice (win0_3.rect t)).set ↔ _
  rw [View.set_slice_whole, Rect.mem_set_unit]
  exact Iff.rfl

/-- Entry (e, n, o) is in the tile of the point at group e and tile n / 1024. -/
theorem tiles_cover (i : S16x4096x2048.Idx) :
    ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 2048 := (i 2).isLt
  obtain ⟨t, ht⟩ := every_tile ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 2048 ≤ (i 2).val ∧ (i 2).val < win0_3.index t (2 : Fin 3) * 2048 + 2048; omega

/-- THE OUTPUT ARRAY after the run is the expert layer of the arrays the region was launched on. -/
theorem output_array (c : Dev nD) :
    (dats m 0 c).arrAt 3 cfg0.N = expertLayer (V m c main_v0) (V m c main_v2) (V m c main_v4) :=
  (dats m 0 c).arrAt_eq_of_cover 3 _ (fun t _ => tile_eq m c t) tiles_cover

end Cert.KernelIdeal.Array

end
-- ==== Proof.KernelResult.lean ====
/-
  The kernel program's result as a function of its arguments.

  Before the region the program regroups the tokens [65536, 1024] as [16, 4096, 1024], moves the expert axis of the
  weights [1024, 2048, 16] to the front and narrows them to a shorter float format, and turns the bias [2048, 16] into
  sixteen rows [16, 1, 2048].  After the region it merges the two leading axes of the output array.  With the output
  array known to be the expert layer of what the region was launched on, the result is the merged expert layer of the
  regrouped tokens, the transposed weights and the transposed bias rows, and the arguments end as they were.
-/
import proofs.«125803_j58317065945538_2_alg».proof.Proof.KernelArray

noncomputable section

namespace Cert.KernelIdeal.Result

open Cert.KernelIdeal Cert.KernelIdeal.Gen Idealize.ShloMosaic Idealize.ShloMosaic.TcCoe Idealize.SL.Sem
open Idealize.ShloMosaic.StableHlo Cert.ExpertLayer

variable (m : (ℓ : Loc nD τ sig) → Buf (Elt Ideal) ℓ) (ρ : Dev nD → PrngReg)

/-- The tokens the region is launched on: the token argument regrouped by expert. -/
theorem launched_tokens (c : Dev nD) :
    (V m c main_v0 : S16x4096x1024.Idx → EReal)
      = shapeCast S16x4096x1024 (m ((c : Thread nD τ).loc main_arg0)) shapeCasts_S65536x1024_S16x4096x1024 := by
  show StableHlo.after hostOps0 (fun b => m (c, b)) (Proc.devRef .tc main_v0) = _
  after_results <;> rfl

/-- The weights the region is launched on: the weight argument with the expert axis in front, narrowed. -/
theorem launched_weights (c : Dev nD) :
    (V m c main_v2 : S16x1024x2048.Idx → EReal)
      = truncf .bf16 (transpose S16x1024x2048 [2, 0, 1] (m ((c : Thread nD τ).loc main_arg2)) transposes_S1024x2048x16_S16x1024x2048_2_0_1 : FVec Ideal S16x1024x2048 .f32) bitsLt_bf16_f32 := by
  show StableHlo.after hostOps0 (fun b => m (c, b)) (Proc.devRef .tc main_v2) = _
  after_results <;> rfl

/-- The bias rows the region is launched on: the bias argument transposed, one [1, 2048] row per expert. -/
theorem launched_bias (c : Dev nD) :
    (V m c main_v4 : S16x1x2048.Idx → EReal)
      = broadcastInDim S16x1x2048 ![0, 2] bcast_S16x2048_S16x1x2048_0_2
          (transpose S16x2048 [1, 0] (m ((c : Thread nD τ).loc main_arg3)) transposes_S2048x16_S16x2048_1_0 : FVec Ideal S16x2048 .f32) := by
  show StableHlo.after hostOps0 (fun b => m (c, b)) (Proc.devRef .tc main_v4) = _
  after_results <;> rfl

/-- The program's result: the output array with its two leading axes merged. -/
theorem merged_output (c : Dev nD) :
    Pipeline.afterTail₀ cfgs (dats m) 0 (V0 m) [hostOps1] c main_v6
      = shapeCast S65536x2048 (expertLayer (V m c main_v0) (V m c main_v2) (V m c main_v4)) shapeCasts_S16x4096x2048_S65536x2048 := by
  unfold Pipeline.afterTail₀
  show StableHlo.after hostOps1 _ (Proc.devRef .tc main_v6) = _
  after_results
  rw [(Pipeline.withArrays_arr spec0 launch0.win.arr_inj c _ _ 3).trans (Cert.KernelIdeal.Array.output_array m c)]
  rfl

/-- Every weakly fair execution of the kernel program terminates with the result at the merged expert layer of the
    regrouped tokens, the transposed weights and the transposed bias rows, and the arguments unchanged. -/
theorem run : θ_run defs (onTc (τ := τ) (main (F := Ideal))) ⟨m, fun _ => 0, ρ⟩ fun r => ∀ c : Dev nD,
      r.2.mem ((c.tc : Thread nD τ).loc main_v6)
        = shapeCast S65536x2048 (expertLayer
            (shapeCast S16x4096x1024 (m ((c : Thread nD τ).loc main_arg0)) shapeCasts_S65536x1024_S16x4096x1024)
            (truncf .bf16 (transpose S16x1024x2048 [2, 0, 1] (m ((c : Thread nD τ).loc main_arg2)) transposes_S1024x2048x16_S16x1024x2048_2_0_1 : FVec Ideal S16x1024x2048 .f32) bitsLt_bf16_f32)
            (broadcastInDim S16x1x2048 ![0, 2] bcast_S16x2048_S16x1x2048_0_2
              (transpose S16x2048 [1, 0] (m ((c : Thread nD τ).loc main_arg3)) transposes_S2048x16_S16x2048_1_0 : FVec Ideal S16x2048 .f32)))
          shapeCasts_S16x4096x2048_S65536x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans
        ((merged_output m c).trans (by rw [launched_tokens, launched_weights, launched_bias])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceLayer.lean ====
/-
  The reference program computes the expert layer.

  Its batched contraction pairs, for group e, token n and output o, the token's k-th feature with the weight at
  (e, k, o); the bias [16, 1, 2048] is spread along the token axis, so entry (e, n, o) receives B(e, 0, o); and the
  activation is spelt out as y · (1 / (1 + exp(−y))) with the constant one, which is the logistic function by definition.
-/
import proofs.«125803_j58317065945538_2_alg».proof.Proof.Gen.ReferenceIdeal.Read
import proofs.«125803_j58317065945538_2_alg».proof.Proof.ExpertLayer
import Idealize.ShloMosaic.Lib.IdealHost

noncomputable section

namespace Cert.ReferenceIdeal.Layer

open Cert.ReferenceIdeal Cert.ReferenceIdeal.Gen Cert.ReferenceIdeal.Read Idealize.ShloMosaic Idealize.ShloMosaic.ValueIdx Cert.ExpertLayer

/-- The left operand of the contraction is read at (group, token, k). -/
theorem lidx_eq (i : S16x4096x2048.Idx) (k : Fin 1024) : lidx_main_v4 i k = ix3 (i 0) (i 1) k :=
  funext fun a => Fin.ext (by match a with | ⟨0, _⟩ => rfl | ⟨1, _⟩ => rfl | ⟨2, _⟩ => rfl)

/-- The right operand is read at (group, k, output). -/
theorem ridx_eq (i : S16x4096x2048.Idx) (k : Fin 1024) : ridx_main_v4 i k = ix3 (i 0) k (i 2) :=
  funext fun a => Fin.ext (by match a with | ⟨0, _⟩ => rfl | ⟨1, _⟩ => rfl | ⟨2, _⟩ => rfl)

/-- The bias spread along the token axis is read at (group, 0, output). -/
theorem bidx_eq (i : S16x4096x2048.Idx) : idx_main_v5 i = ix3 (i 0) (0 : Fin 1) (i 2) :=
  funext fun a => Fin.ext (by match a with | ⟨0, _⟩ => rfl | ⟨1, _⟩ => rfl | ⟨2, _⟩ => rfl)

/-- Before its final reshape the reference holds the expert layer of its regrouped tokens, its transposed weights and
    its transposed, column-shaped bias. -/
theorem activation_eq (x0 : (⟨S65536x1024, .f32⟩ : BufTy).Contents (Elt Ideal)) (x2 : (⟨S1024x2048x16, .f32⟩ : BufTy).Contents (Elt Ideal))
    (x3 : (⟨S2048x16, .f32⟩ : BufTy).Contents (Elt Ideal)) :
    val_main_v7 (F := Ideal) x0 x2 x3
      = expertLayer (val_main_v0 (F := Ideal) x0) (val_main_v1 (F := Ideal) x2) (val_main_v3 (F := Ideal) x3) := by
  funext i
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, val_main_v6_apply, val_main_v4_apply, val_main_v5_apply]
  simp only [lidx_eq, ridx_eq, bidx_eq, Ideal.mulf_def, Ideal.addf_def, Ideal.hostDivf_def, Ideal.hostUnary_exp_def,
    Ideal.hostNegf_def, Ideal.negf_def, Ideal.ofBits_def, Ideal.ofBits_one_f32]
  rfl

/-- The reference's result: the expert layer of its regrouped tokens, transposed weights and transposed bias rows, with
    the two leading axes merged. -/
theorem result_eq (x0 : (⟨S65536x1024, .f32⟩ : BufTy).Contents (Elt Ideal)) (x2 : (⟨S1024x2048x16, .f32⟩ : BufTy).Contents (Elt Ideal))
    (x3 : (⟨S2048x16, .f32⟩ : BufTy).Contents (Elt Ideal)) :
    val_main_v8 (F := Ideal) x0 x2 x3
      = shapeCast S65536x2048 (expertLayer
          (shapeCast S16x4096x1024 x0 shapeCasts_S65536x1024_S16x4096x1024)
          (transpose S16x1024x2048 [2, 0, 1] x2 transposes_S1024x2048x16_S16x1024x2048_2_0_1)
          (broadcastInDim S16x1x2048 ![0, 2] bcast_S16x2048_S16x1x2048_0_2
            (transpose S16x2048 [1, 0] x3 transposes_S2048x16_S16x2048_1_0)))
        shapeCasts_S16x4096x2048_S65536x2048 := by
  unfold val_main_v8
  rw [activation_eq]
  rfl

end Cert.ReferenceIdeal.Layer

end
-- ==== Proof.lean ====
/-
  A mixture-of-experts layer on tokens sorted into sixteen equal groups: the tiled kernel against the batched reference.

  Both programs regroup the tokens as [16, 4096, 1024], bring the expert axis of the weights and of the bias to the
  front, and compute for group e, token n and output o

      silu ( Σ_k tokens(e, n, k) · weights(e, k, o) + bias(e, 0, o) ),     silu y = y · 1 / (1 + e^(−y)),

  then merge the two leading axes of the [16, 4096, 2048] result.  The reference does it with one batched contraction
  over the whole arrays and spells the logistic function out; the kernel does it tile by tile — 1024 tokens of one
  group against all of that group's weights at each of 64 grid points, the tiles covering the output array — with the
  weights narrowed to a shorter float format first and the logistic function as one operation.  On the extended reals
  narrowing is the identity, the logistic function is 1 / (1 + e^(−y)) by definition, and the contraction is the same
  finite sum however it is tiled, so the two results are one function of the arguments.  No entry needs to be finite.

  The kernel program's frames and the reference's run are the generated modules'; the idealization rewrote nothing.
-/
import proofs.«125803_j58317065945538_2_alg».proof.Defs
import proofs.«125803_j58317065945538_2_alg».proof.Proof.Gen.Kernel
import proofs.«125803_j58317065945538_2_alg».proof.Proof.Gen.Kernel.Skeleton
import proofs.«125803_j58317065945538_2_alg».proof.Proof.Gen.Kernel.Launch
import proofs.«125803_j58317065945538_2_alg».proof.Proof.Gen.Kernel.Points
import proofs.«125803_j58317065945538_2_alg».proof.Proof.Gen.Kernel.Frame
import proofs.«125803_j58317065945538_2_alg».proof.Proof.Gen.KernelIdeal
import proofs.«125803_j58317065945538_2_alg».proof.Proof.Gen.KernelIdeal.Skeleton
import proofs.«125803_j58317065945538_2_alg».proof.Proof.Gen.KernelIdeal.Launch
import proofs.«125803_j58317065945538_2_alg».proof.Proof.Gen.KernelIdeal.Points
import proofs.«125803_j58317065945538_2_alg».proof.Proof.Gen.KernelIdeal.Frame
import proofs.«125803_j58317065945538_2_alg».proof.Proof.Gen.ReferenceIdeal
import proofs.«125803_j58317065945538_2_alg».proof.Proof.Gen.ReferenceIdeal.Run
import proofs.«125803_j58317065945538_2_alg».proof.Proof.Gen.ReferenceIdeal.Read
import proofs.«125803_j58317065945538_2_alg».proof.Proof.Gen.Pre_finite_inputs
import proofs.«125803_j58317065945538_2_alg».proof.Proof.KernelResult
import proofs.«125803_j58317065945538_2_alg».proof.Proof.ReferenceLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end holding the merged expert layer of the regrouped
    tokens, the transposed weights and the transposed bias rows; the kernel's narrowing of the weights is the identity
    on the extended reals. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2, Cert.ReferenceIdeal.Read.val_main_v8_eq,
    Cert.ReferenceIdeal.Layer.result_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
